-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel

variable [Facts]

def fn {F : FTy → Type} [FloatOps F] (main_arg0 : FVec F S262144x512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  main_v3
-- ==== Kernel.lean ====
abbrev S262144x512 : Shape := ⟨2, ![262144, 512]⟩
abbrev S2x8x512 : Shape := ⟨3, ![2, 8, 512]⟩
abbrev S8192x512 : Shape := ⟨2, ![8192, 512]⟩
abbrev S1x8x512 : Shape := ⟨3, ![1, 8, 512]⟩
abbrev S8x512 : Shape := ⟨2, ![8, 512]⟩
abbrev S1024x512 : Shape := ⟨2, ![1024, 512]⟩
abbrev S1x512 : Shape := ⟨2, ![1, 512]⟩
abbrev S512 : Shape := ⟨1, ![512]⟩
abbrev S_ : Shape := ⟨0, ![]⟩

abbrev nBuf : Space → Nat
  | .hbm => 13
  | .vmem => 5
  | .smem => 0
  | _ => 0

abbrev bufTy : (tb : Table) → Fin (tcTables nBuf tb) → BufTy
  | .hbm, ⟨0, _⟩ => ⟨S262144x512, .f32⟩
  | .hbm, ⟨1, _⟩ => ⟨S2x8x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8192x512, .f32⟩
  | .local _ .vmem, ⟨1, _⟩ => ⟨S8192x512, .f32⟩
  | .local _ .vmem, ⟨2, _⟩ => ⟨S1x8x512, .f32⟩
  | .local _ .vmem, ⟨3, _⟩ => ⟨S1x8x512, .f32⟩
  | .local _ .vmem, ⟨4, _⟩ => ⟨S8x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_mult1 : BitVec 32 :=
  let c0_i32_1 : BitVec 32 := 0#32
  let c1024_i32 : BitVec 32 := 1024#32
  let v3 : BitVec 32 := Scalar.muli c0_i32_1 c1024_i32
  v3
def k0_off1 (c0_i32_1 : BitVec 32) : Fin 2 → Nat :=
  let c1024_i32 : BitVec 32 := 1024#32
  let v3 : BitVec 32 := Scalar.muli c0_i32_1 c1024_i32
  let v4 : BitVec 32 := v3
  let v5 : Index := Scalar.indexCast v4
  let c0 : Index := 0#32
  ![v5.toNat, 0]
def k0_mult2 : BitVec 32 :=
  let c1_i32 : BitVec 32 := 1#32
  let c1024_i32_6 : BitVec 32 := 1024#32
  let v15 : BitVec 32 := Scalar.muli c1_i32 c1024_i32_6
  v15
def k0_mult3 : BitVec 32 :=
  let c2_i32 : BitVec 32 := 2#32
  let c1024_i32_13 : BitVec 32 := 1024#32
  let v27 : BitVec 32 := Scalar.muli c2_i32 c1024_i32_13
  v27
def k0_mult4 : BitVec 32 :=
  let c3_i32 : BitVec 32 := 3#32
  let c1024_i32_20 : BitVec 32 := 1024#32
  let v39 : BitVec 32 := Scalar.muli c3_i32 c1024_i32_20
  v39
def k0_mult5 : BitVec 32 :=
  let c4_i32 : BitVec 32 := 4#32
  let c1024_i32_27 : BitVec 32 := 1024#32
  let v51 : BitVec 32 := Scalar.muli c4_i32 c1024_i32_27
  v51
def k0_mult6 : BitVec 32 :=
  let c5_i32 : BitVec 32 := 5#32
  let c1024_i32_34 : BitVec 32 := 1024#32
  let v63 : BitVec 32 := Scalar.muli c5_i32 c1024_i32_34
  v63
def k0_mult7 : BitVec 32 :=
  let c6_i32 : BitVec 32 := 6#32
  let c1024_i32_41 : BitVec 32 := 1024#32
  let v75 : BitVec 32 := Scalar.muli c6_i32 c1024_i32_41
  v75
def k0_mult8 : BitVec 32 :=
  let c7_i32 : BitVec 32 := 7#32
  let c1024_i32_48 : BitVec 32 := 1024#32
  let v87 : BitVec 32 := Scalar.muli c7_i32 c1024_i32_48
  v87
def k0_cond2 (i : grid0.Coords) : BitVec 1 :=
  let arg1 : BitVec 32 := BitVec.ofNat 32 (i 1).val
  let c15_i32 : BitVec 32 := 15#32
  let v99 : BitVec 1 := Scalar.cmpi .eq arg1 c15_i32
  let v100 : BitVec 32 := Scalar.extui v99
  let c0_i32_55 : BitVec 32 := 0#32
  let v101 : BitVec 1 := Scalar.cmpi .ne v100 c0_i32_55
  v101

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  h_S1024x512 : 0 < S1024x512.numel
  inb_S8x512_S1x512_0_0 : ∀ a, (![0, 0] : Fin 2 → Nat) a + S1x512.size a ≤ S8x512.size a
  h_S1x512 : 0 < S1x512.numel
  reduces_S1024x512_S512 : S1024x512.Reduces [0] S512
  shapeCasts_S512_S1x512 : S512.ShapeCasts S1x512
  shapeCasts_S1x512_S1x512 : S1x512.ShapeCasts S1x512
  shapeCasts_S8x512_S1x8x512 : S8x512.ShapeCasts S1x8x512
  inb_S1x8x512_S1x8x512_0_0_0 : ∀ a, (![0, 0, 0] : Fin 3 → Nat) a + S1x8x512.size a ≤ S1x8x512.size a
  h_S1x8x512 : 0 < S1x8x512.numel
  reducesTo_S2x8x512_S512_d0_1 : S2x8x512.ReducesTo [0, 1] S512
  h_S_ : 0 < S_.numel
  bcast_S_S512 : S_.BroadcastsInDim S512 (![] : Fin 0 → Fin S512.rank)
  reducesTo_S512_S_d0 : S512.ReducesTo [0] S_
  hrank0 : 0 < grid0.rank
  k0_mult1_dvd : 1024 ∣ k0_mult1.toNat
  k0_off1_inb : ∀ (r : Fin 8), ∀ a, (k0_off1 (BitVec.ofNat 32 r.val)) a + S1024x512.size a ≤ S8192x512.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S262144x512.size a
  hwx0_0 : ∀ i : grid0.Coords, EltTy.bits .f32 = 32 ∨ (Rect.block (s := S262144x512) S8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S2x8x512.size a
  hwx0_1 : ∀ i : grid0.Coords, EltTy.bits .f32 = 32 ∨ (Rect.block (s := S2x8x512) S1x8x512.size (cc0_transform_1 i) (hinb0_1 i)).WholeWords (EltTy.packing .f32)

variable [Facts₀]

abbrev win0_0 : Pipeline.Window sig grid0 :=
  Pipeline.Window.ofSpec (Memref.whole main_arg0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S262144x512 : Shape := ⟨2, ![262144, 512]⟩
abbrev S_ : Shape := ⟨0, ![]⟩
abbrev S512 : Shape := ⟨1, ![512]⟩

abbrev nBuf : Space → Nat
  | .hbm => 13
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S262144x512_S512_d0 : S262144x512.ReducesTo [0] S512
  h_S_ : 0 < S_.numel
  bcast_S_S512 : S_.BroadcastsInDim S512 (![] : Fin 0 → Fin S512.rank)
  reducesTo_S512_S_d0 : S512.ReducesTo [0] S_

variable [Facts₀]

class Facts : Prop extends Facts₀ where

variable [Facts]
-- ==== Proof.Pieces.lean ====
/-
  What one grid point leaves in the [8, 512] accumulator, and in the output block, read entry by entry (any float instance).

  A point touches only row 0 of the accumulator: eight times it loads the row, adds the column sums of the squares of
  one run of 1024 rows of its input block, and stores the row back. Each load reads through exactly the rectangle the
  store before it wrote, so it reads that store's value and the nest of loads and stores is a chain of eight updates
  (`row8`) of the row the point found. Rows 1 to 7 are under no store: they keep what the point found — the zero fill
  at the first point of a half, the previous point's rows otherwise. At the last point of a half the whole accumulator
  is copied, viewed as [1, 8, 512], into the output block.
-/
import proofs.«159747_j61701500175357_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.ShloMosaic.ValueIdx Idealize.SL.Sem

namespace Cert.KernelIdeal.Pieces

open Cert.KernelIdeal Cert.KernelIdeal.Gen

variable {F : FTy → Type} [FloatOps F]

/-- Rows 1024·k … 1024·k + 1023 of an input block, every column. -/
abbrev runRect (k : Fin 8) : Rect S8192x512 :=
  Rect.unit (k0_off1 (BitVec.ofNat 32 k.val)) S1024x512.size (k0_off1_inb k)

/-- Row 0 of the accumulator, every column. -/
abbrev accRow : Rect S8x512 := Rect.unit ![0, 0] S1x512.size inb_S8x512_S1x512_0_0

/-- Run `k` of an input block. -/
def run (x : Vec F S8192x512 .f32) (k : Fin 8) : Vec F S1024x512 .f32 := View.ld x (runRect k)

/-- One update of the accumulator's row 0: the row plus the column sums of the squares of one run. -/
def upd (v : Vec F S1024x512 .f32) (a : Vec F S1x512 .f32) : FVec F S1x512 .f32 := k0_pay3 v a

/-- The eight updates a grid point makes, run 0 first. -/
def row8 (x : Vec F S8192x512 .f32) (a : Vec F S1x512 .f32) : FVec F S1x512 .f32 :=
  upd (run x 7) (upd (run x 6) (upd (run x 5) (upd (run x 4) (upd (run x 3) (upd (run x 2) (upd (run x 1) (upd (run x 0) a)))))))

theorem hz2 : (![0, 0] : Fin 2 → Nat) = fun _ => 0 := funext fun a => by fin_cases a <;> rfl
theorem hz3 : (![0, 0, 0] : Fin 3 → Nat) = fun _ => 0 := funext fun a => by fin_cases a <;> rfl

/-- Case B, row 0 of the accumulator: the eight updates applied to the row the point before left. Every load of the
    row reads exactly what the store before it wrote, so the nest of loads and stores is a chain of eight updates. -/
theorem scratch_B_row0 (c : Dev nD) (i : grid0.Coords) (a2 : Memref sig .tc .vmem S8192x512 .f32) (h2 : a2.IsWhole)
    (a3 : Memref sig .tc .vmem S1x8x512 .f32) (h3 : a3.IsWhole) (a4 : Memref sig .tc .vmem S8x512 .f32) (h4 : a4.IsWhole)
    (hc0 : ¬cond0_0 i) (hc1 : ¬cond0_1 i) (x0 : Vec F S8192x512 .f32) (xs0 : Vec F S8x512 .f32) (j : Fin 512) :
    sout0_B_0 c i a2 h2 a3 h3 a4 h4 hc0 hc1 x0 xs0 (ix2 0 j) = row8 x0 (View.ld xs0 accRow) (ix2 0 j) := by
  unfold sout0_B_0 kernelRun0_B
  dsimp only
  refine (View.read_writes_cons_rows_of_mem (off := ![0, 0]) (size := ![1, 512]) (o := 0) a4.view _ inb_S8x512_S1x512_0_0 _ _ (ix2 (0 : Fin 8) j) (ix2 (0 : Fin 1) j) rfl rfl rfl).trans ?_
  sl_unfold_words
  simp only [View.readCov_cons_toLoadRect, View.readAt_eq_ld, h2.read_unread, h4.read_unread]
  rfl

/-- Case B, rows 1 to 7 of the accumulator: no store touches them, so they keep what the point before left. -/
theorem scratch_B_rest (c : Dev nD) (i : grid0.Coords) (a2 : Memref sig .tc .vmem S8192x512 .f32) (h2 : a2.IsWhole)
    (a3 : Memref sig .tc .vmem S1x8x512 .f32) (h3 : a3.IsWhole) (a4 : Memref sig .tc .vmem S8x512 .f32) (h4 : a4.IsWhole)
    (hc0 : ¬cond0_0 i) (hc1 : ¬cond0_1 i) (x0 : Vec F S8192x512 .f32) (xs0 : Vec F S8x512 .f32) (s : Fin 8) (hs : s.val ≠ 0) (j : Fin 512) :
    sout0_B_0 c i a2 h2 a3 h3 a4 h4 hc0 hc1 x0 xs0 (ix2 s j) = xs0 (ix2 s j) := by
  unfold sout0_B_0 kernelRun0_B
  dsimp only
  have hrow : ((ix2 s j : S8x512.Idx) (0 : Fin 2)).val < 0 ∨ 0 + 1 ≤ ((ix2 s j : S8x512.Idx) (0 : Fin 2)).val :=
    Or.inr (by show 0 + 1 ≤ s.val; omega)
  sl_unfold_words
  iterate 8 refine (View.read_writes_cons_rows_of_not_mem (o := 0) (W := 1) a4.view _ _ _ _ (ix2 s j) rfl rfl hrow).trans ?_
  exact congrFun (h4.read_unread xs0) _

/-- Case C, row 0 of the accumulator: the eight updates applied to the row the point before left. Every load of the
    row reads exactly what the store before it wrote, so the nest of loads and stores is a chain of eight updates. -/
theorem scratch_C_row0 (c : Dev nD) (i : grid0.Coords) (a2 : Memref sig .tc .vmem S8192x512 .f32) (h2 : a2.IsWhole)
    (a3 : Memref sig .tc .vmem S1x8x512 .f32) (h3 : a3.IsWhole) (a4 : Memref sig .tc .vmem S8x512 .f32) (h4 : a4.IsWhole)
    (hc0 : ¬cond0_0 i) (hc1 : cond0_1 i) (x0 : Vec F S8192x512 .f32) (xs0 : Vec F S8x512 .f32) (j : Fin 512) :
    sout0_C_0 c i a2 h2 a3 h3 a4 h4 hc0 hc1 x0 xs0 (ix2 0 j) = row8 x0 (View.ld xs0 accRow) (ix2 0 j) := by
  unfold sout0_C_0 kernelRun0_C
  dsimp only
  refine (View.read_writes_cons_rows_of_mem (off := ![0, 0]) (size := ![1, 512]) (o := 0) a4.view _ inb_S8x512_S1x512_0_0 _ _ (ix2 (0 : Fin 8) j) (ix2 (0 : Fin 1) j) rfl rfl rfl).trans ?_
  sl_unfold_words
  simp only [View.readCov_cons_toLoadRect, View.readAt_eq_ld, h2.read_unread, h4.read_unread]
  rfl

/-- Case C, rows 1 to 7 of the accumulator: no store touches them, so they keep what the point before left. -/
theorem scratch_C_rest (c : Dev nD) (i : grid0.Coords) (a2 : Memref sig .tc .vmem S8192x512 .f32) (h2 : a2.IsWhole)
    (a3 : Memref sig .tc .vmem S1x8x512 .f32) (h3 : a3.IsWhole) (a4 : Memref sig .tc .vmem S8x512 .f32) (h4 : a4.IsWhole)
    (hc0 : ¬cond0_0 i) (hc1 : cond0_1 i) (x0 : Vec F S8192x512 .f32) (xs0 : Vec F S8x512 .f32) (s : Fin 8) (hs : s.val ≠ 0) (j : Fin 512) :
    sout0_C_0 c i a2 h2 a3 h3 a4 h4 hc0 hc1 x0 xs0 (ix2 s j) = xs0 (ix2 s j) := by
  unfold sout0_C_0 kernelRun0_C
  dsimp only
  have hrow : ((ix2 s j : S8x512.Idx) (0 : Fin 2)).val < 0 ∨ 0 + 1 ≤ ((ix2 s j : S8x512.Idx) (0 : Fin 2)).val :=
    Or.inr (by show 0 + 1 ≤ s.val; omega)
  sl_unfold_words
  iterate 8 refine (View.read_writes_cons_rows_of_not_mem (o := 0) (W := 1) a4.view _ _ _ _ (ix2 s j) rfl rfl hrow).trans ?_
  exact congrFun (h4.read_unread xs0) _

/-- Case C, the output block: the whole accumulator, as the eight updates left it, viewed as [1, 8, 512]. -/
theorem out_C (c : Dev nD) (i : grid0.Coords) (a2 : Memref sig .tc .vmem S8192x512 .f32) (h2 : a2.IsWhole)
    (a3 : Memref sig .tc .vmem S1x8x512 .f32) (h3 : a3.IsWhole) (a4 : Memref sig .tc .vmem S8x512 .f32) (h4 : a4.IsWhole)
    (hc0 : ¬cond0_0 i) (hc1 : cond0_1 i) (x0 : Vec F S8192x512 .f32) (xs0 : Vec F S8x512 .f32) :
    out0_C_1 c i a2 h2 a3 h3 a4 h4 hc0 hc1 x0 xs0 = k0_pay1 (sout0_C_0 c i a2 h2 a3 h3 a4 h4 hc0 hc1 x0 xs0) := by
  unfold out0_C_1
  rw [View.read_writes_eq_canon _ _ _ (cover0_C_1 c i a2 h2 a3 h3 a4 h4 hc0 hc1 x0 xs0)]
  unfold sout0_C_0 kernelRun0_C
  dsimp only
  rw [View.canon_unit_zero hz3]
  sl_unfold_words
  simp only [View.readAt_eq_ld, View.ld_unit_zero (S := S8x512) hz2]

/-- Case A, row 0 of the accumulator: the eight updates applied to row 0 of the zero fill. -/
theorem scratch_A_row0 (c : Dev nD) (i : grid0.Coords) (a2 : Memref sig .tc .vmem S8192x512 .f32) (h2 : a2.IsWhole)
    (a3 : Memref sig .tc .vmem S1x8x512 .f32) (h3 : a3.IsWhole) (a4 : Memref sig .tc .vmem S8x512 .f32) (h4 : a4.IsWhole)
    (hc0 : cond0_0 i) (hc1 : ¬cond0_1 i) (x0 : Vec F S8192x512 .f32) (j : Fin 512) :
    sout0_A_0 c i a2 h2 a3 h3 a4 h4 hc0 hc1 x0 (ix2 0 j) = row8 x0 (View.ld (k0_pay2 (F := F)) accRow) (ix2 0 j) := by
  unfold sout0_A_0 kernelRun0_A
  dsimp only
  refine (View.read_writes_cons_rows_of_mem (off := ![0, 0]) (size := ![1, 512]) (o := 0) VS0_0 _ inb_S8x512_S1x512_0_0 _ _ (ix2 (0 : Fin 8) j) (ix2 (0 : Fin 1) j) rfl rfl rfl).trans ?_
  sl_unfold_words
  simp only [View.readCov_cons_toLoadRect, View.readAt_eq_ld, h2.read_unread]
  simp only [View.readCov_eq_canon', View.canon_unit_zero (S := S8x512) hz2]
  rfl

/-- Case A, rows 1 to 7 of the accumulator: the zero fill. -/
theorem scratch_A_rest (c : Dev nD) (i : grid0.Coords) (a2 : Memref sig .tc .vmem S8192x512 .f32) (h2 : a2.IsWhole)
    (a3 : Memref sig .tc .vmem S1x8x512 .f32) (h3 : a3.IsWhole) (a4 : Memref sig .tc .vmem S8x512 .f32) (h4 : a4.IsWhole)
    (hc0 : cond0_0 i) (hc1 : ¬cond0_1 i) (x0 : Vec F S8192x512 .f32) (s : Fin 8) (hs : s.val ≠ 0) (j : Fin 512) :
    sout0_A_0 c i a2 h2 a3 h3 a4 h4 hc0 hc1 x0 (ix2 s j) = k0_pay2 (F := F) (ix2 s j) := by
  unfold sout0_A_0 kernelRun0_A
  dsimp only
  have hrow : ((ix2 s j : S8x512.Idx) (0 : Fin 2)).val < 0 ∨ 0 + 1 ≤ ((ix2 s j : S8x512.Idx) (0 : Fin 2)).val :=
    Or.inr (by show 0 + 1 ≤ s.val; omega)
  sl_unfold_words
  iterate 8 refine (View.read_writes_cons_rows_of_not_mem (o := 0) (W := 1) VS0_0 _ _ _ _ (ix2 s j) rfl rfl hrow).trans ?_
  exact View.read_writes_cons_unit_of_mem (off := ![0, 0]) (off' := ![0, 0]) (size := ![8, 512]) VS0_0 _ inb_S8x512_S8x512_0_0 _ _ (ix2 s j) (ix2 s j) rfl
    (fun a => by match a with | ⟨0, _⟩ => exact (Nat.zero_add _).symm | ⟨1, _⟩ => exact (Nat.zero_add _).symm)

end Cert.KernelIdeal.Pieces
end
-- ==== Proof.LibBlockSum.lean ====
/-
  Sums taken block by block, and a running accumulator over the blocks.

  Every statement holds in any commutative additive monoid `M`, in particular in the extended reals, and none asks that
  a term be finite: only associativity and commutativity of `+` and `0 + a = a` are used.

  • `sum_blocks`: a sum over `T * B` consecutive indices is the sum, over the `T` blocks, of each block's sum over its `B`
    entries, entry `p` of block `t` being index `t * B + p`. `sum_blocks_of_eq` says the same of an index range of any
    length `N` with `N = T * B`.
  • `acc_eq`: an accumulator that is `z + (z + S 0)` after step `0` and grows by `z + S (n + 1)` at step `n + 1`, where
    `z = 0`, is `z + ∑ t < n + 1, S t` after step `n`. `acc_eq_of_lt` asks for the recurrence below a bound only;
    `acc_fin_eq` and `acc_fin_total` are the forms for steps indexed by `Fin T`.
  • `acc_blocks_total`: the two together: an accumulator of block sums ends at `z` plus the sum over all indices.
-/
import Mathlib.Data.EReal.Basic
import Mathlib.Algebra.BigOperators.Fin

open scoped BigOperators

namespace Cert.LibBlockSum

variable {M : Type*} [AddCommMonoid M]

/-- Entry `p` of block `t`, of `T` blocks of `B` entries, is an index below `T * B`. -/
theorem blk_lt {T B : ℕ} (t : Fin T) (p : Fin B) : t.val * B + p.val < T * B := by
  have h1 : (t.val + 1) * B ≤ T * B := Nat.mul_le_mul_right B t.isLt
  have h2 : t.val * B + p.val < (t.val + 1) * B := by
    rw [Nat.add_mul, Nat.one_mul]; exact Nat.add_lt_add_left p.isLt _
  exact lt_of_lt_of_le h2 h1

/-- A sum over `T * B` indices, block by block: `∑ r, f r = ∑ t, ∑ p, f (t * B + p)`. -/
theorem sum_blocks (T B : ℕ) (f : Fin (T * B) → M) :
    ∑ r : Fin (T * B), f r = ∑ t : Fin T, ∑ p : Fin B, f ⟨t.val * B + p.val, blk_lt t p⟩ := by
  rw [← (finProdFinEquiv (m := T) (n := B)).sum_comp f, Fintype.sum_prod_type]
  refine Finset.sum_congr rfl fun t _ => Finset.sum_congr rfl fun p _ => ?_
  refine congrArg f (Fin.ext ?_)
  rw [finProdFinEquiv_apply_val]
  show p.val + B * t.val = t.val * B + p.val
  rw [Nat.mul_comm, Nat.add_comm]

/-- The same for an index range of length `N = T * B`. -/
theorem sum_blocks_of_eq {N : ℕ} (T B : ℕ) (hN : N = T * B) (f : Fin N → M) :
    ∑ r : Fin N, f r
      = ∑ t : Fin T, ∑ p : Fin B, f ⟨t.val * B + p.val, (blk_lt t p).trans_eq hN.symm⟩ := by
  subst hN
  exact sum_blocks T B f

/-- The running accumulator, the recurrence asked for below a bound `T` only. -/
theorem acc_eq_of_lt (T : ℕ) (z : M) (hz : z = 0) (S acc : ℕ → M)
    (h0 : acc 0 = z + (z + S 0))
    (hs : ∀ n, n + 1 < T → acc (n + 1) = acc n + (z + S (n + 1))) :
    ∀ n, n < T → acc n = z + ∑ t ∈ Finset.range (n + 1), S t := by
  subst hz
  intro n
  induction n with
  | zero =>
    intro _
    rw [h0]
    simp only [zero_add, Finset.sum_range_one]
  | succ n ih =>
    intro hn
    rw [hs n hn, ih (Nat.lt_of_succ_lt hn)]
    simp only [zero_add]
    exact (Finset.sum_range_succ S (n + 1)).symm

/-- The running accumulator: from `z + (z + S 0)`, adding `z + S (n + 1)` at step `n + 1`, with `z = 0`. -/
theorem acc_eq (z : M) (hz : z = 0) (S acc : ℕ → M)
    (h0 : acc 0 = z + (z + S 0))
    (hs : ∀ n, acc (n + 1) = acc n + (z + S (n + 1))) (n : ℕ) :
    acc n = z + ∑ t ∈ Finset.range (n + 1), S t :=
  acc_eq_of_lt (n + 1) z hz S acc h0 (fun k _ => hs k) n (Nat.lt_succ_self n)

/-- The running accumulator with steps indexed by `Fin T`: after step `n` it is `z` plus the first `n + 1` terms. -/
theorem acc_fin_eq {T : ℕ} (z : M) (hz : z = 0) (S acc : Fin T → M)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩)) :
    ∀ (n : ℕ) (h : n < T),
      acc ⟨n, h⟩ = z + ∑ t : Fin (n + 1), S ⟨t.val, Nat.lt_of_lt_of_le t.isLt (Nat.succ_le_of_lt h)⟩ := by
  subst hz
  intro n
  induction n with
  | zero =>
    intro h
    rw [h0 h]
    simp only [zero_add, Fin.sum_univ_castSucc, Fin.sum_univ_zero]
    rfl
  | succ n ih =>
    intro h
    rw [hs n h, ih (Nat.lt_of_succ_lt h), Fin.sum_univ_castSucc (n := n + 1)]
    simp only [zero_add]
    rfl

/-- The running accumulator over all `T = n + 1` steps: after the last step it is `z` plus the sum of all terms. -/
theorem acc_fin_total {T : ℕ} (z : M) (hz : z = 0) (S acc : Fin T → M)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩))
    (n : ℕ) (hT : T = n + 1) :
    acc ⟨n, hT ▸ Nat.lt_succ_self n⟩ = z + ∑ t : Fin T, S t := by
  subst hT
  exact acc_fin_eq z hz S acc h0 hs n (Nat.lt_succ_self n)

/-- An accumulator of block sums: if step `t` adds the sum of block `t` of `f`, then after the last of the `T = n + 1`
    steps the accumulator is `z` plus the sum of `f` over all `N = T * B` indices. -/
theorem acc_blocks_total {N : ℕ} (T B : ℕ) (hN : N = T * B) (z : M) (hz : z = 0) (f : Fin N → M) (S acc : Fin T → M)
    (hS : ∀ t : Fin T, S t = ∑ p : Fin B, f ⟨t.val * B + p.val, (blk_lt t p).trans_eq hN.symm⟩)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩))
    (n : ℕ) (hT : T = n + 1) :
    acc ⟨n, hT ▸ Nat.lt_succ_self n⟩ = z + ∑ r : Fin N, f r := by
  rw [acc_fin_total z hz S acc h0 hs n hT, sum_blocks_of_eq T B hN f]
  exact congrArg (z + ·) (Finset.sum_congr rfl fun t _ => hS t)

/-- The shape of use: 50000 rows in 25 blocks of 2000, in the extended reals. -/
example (f : Fin 50000 → EReal) :
    ∑ r : Fin 50000, f r = ∑ t : Fin 25, ∑ p : Fin 2000, f ⟨t.val * 2000 + p.val, (blk_lt t p).trans_eq (by norm_num)⟩ :=
  sum_blocks_of_eq 25 2000 (by norm_num) f

end Cert.LibBlockSum
-- ==== Proof.ColumnSquares.lean ====
/-
  The mathematics of the column-norm residual, on the extended reals.

  For a matrix D with 262144 rows and 512 columns, column j's squared norm is  ∑ r, D(r, j) · D(r, j).
  The rows are cut into 32 consecutive blocks of 8192 rows, and each block into 8 runs of 1024 rows; summing
  run by run, block by block, gives the same number, because only associativity and commutativity of + are used
  (no term has to be finite).  A [2, 8, 512] array whose sublane 0 of plane c holds the sum of the 16 blocks of
  half c, and whose other sublanes hold 0, sums over its two leading axes to the column's squared norm.
  What follows the column sums on both sides (subtract 1, square, sum, square root, scale) is ONE function,
  `tail`, never opened.
-/
import Idealize.ShloMosaic.PureOps.Ideal
import Idealize.ShloMosaic.PureOps.Ideal.Laws
import Idealize.ShloMosaic.Lib.ValueIdx
import proofs.«159747_j61701500175357_2_alg».proof.Proof.LibBlockSum

noncomputable section

open Idealize.ShloMosaic Idealize.ShloMosaic.ValueIdx
open scoped BigOperators

namespace Cert.ColumnSquares

abbrev SD : Shape := ⟨2, ![262144, 512]⟩
abbrev SB : Shape := ⟨2, ![8192, 512]⟩
abbrev SR : Shape := ⟨2, ![1024, 512]⟩
abbrev SO : Shape := ⟨3, ![2, 8, 512]⟩
abbrev SC : Shape := ⟨1, ![512]⟩
abbrev S0 : Shape := ⟨0, ![]⟩

/-- Column j's squared norm over all 262144 rows. -/
def colSq (D : SD.Idx → EReal) (j : Fin 512) : EReal := ∑ r : Fin 262144, D (ix2 r j) * D (ix2 r j)

/-- Column j's squared norm over one block of 8192 rows. -/
def blockSq (x : SB.Idx → EReal) (j : Fin 512) : EReal := ∑ q : Fin 8192, x (ix2 q j) * x (ix2 q j)

/-- Column j's squared norm over one run of 1024 rows. -/
def runSq (v : SR.Idx → EReal) (j : Fin 512) : EReal := ∑ r : Fin 1024, v (ix2 r j) * v (ix2 r j)

/-- Row `k * 1024 + r` of a block of 8192 rows. -/
abbrev runRow (k : Fin 8) (r : Fin 1024) : Fin 8192 := ⟨k.val * 1024 + r.val, by have := k.isLt; have := r.isLt; omega⟩

/-- Row `t * 8192 + q` of the matrix. -/
abbrev blockRow (t : Fin 32) (q : Fin 8192) : Fin 262144 := ⟨t.val * 8192 + q.val, by have := t.isLt; have := q.isLt; omega⟩

/-- A block's column sum is the sum of its eight runs' column sums. -/
theorem blockSq_eq_runs (x : SB.Idx → EReal) (j : Fin 512) :
    blockSq x j = ∑ k : Fin 8, ∑ r : Fin 1024, x (ix2 (runRow k r) j) * x (ix2 (runRow k r) j) := by
  unfold blockSq
  exact Cert.LibBlockSum.sum_blocks_of_eq 8 1024 (by norm_num) (fun q : Fin 8192 => x (ix2 q j) * x (ix2 q j))

/-- The matrix's column sum is the sum of its 32 blocks' column sums. -/
theorem colSq_eq_blocks (D : SD.Idx → EReal) (j : Fin 512) :
    colSq D j = ∑ t : Fin 32, ∑ q : Fin 8192, D (ix2 (blockRow t q) j) * D (ix2 (blockRow t q) j) := by
  unfold colSq
  exact Cert.LibBlockSum.sum_blocks_of_eq 32 8192 (by norm_num) (fun r : Fin 262144 => D (ix2 r j) * D (ix2 r j))

/-- Eight successive additions to an accumulator add the sum of the eight terms. -/
theorem chain8 (a : EReal) (s : Fin 8 → EReal) :
    (((((((a + s 0) + s 1) + s 2) + s 3) + s 4) + s 5) + s 6) + s 7 = a + ∑ k : Fin 8, s k := by
  rw [Fin.sum_univ_eight]
  simp only [add_assoc]

/-- The 32 blocks in two halves of 16. -/
theorem sum_halves (B : Fin 32 → EReal) :
    ∑ t : Fin 32, B t = ∑ c : Fin 2, ∑ i : Fin 16, B ⟨c.val * 16 + i.val, by have := c.isLt; have := i.isLt; omega⟩ :=
  Cert.LibBlockSum.sum_blocks_of_eq 2 16 (by norm_num) B

/-! ## The sum over the two leading axes of a [2, 8, 512] array -/

theorem drop01 (h : SO.ReducesTo [0, 1] SC) (c : Fin 2) (s : Fin 8) (l : Fin 512) : h.drop (ix3 c s l) = ix1 l := by
  funext b
  match b with
  | ⟨0, _⟩ => rfl

theorem eq_of_drop01 (h : SO.ReducesTo [0, 1] SC) (i : SO.Idx) (j : SC.Idx) (hd : h.drop i = j) :
    i = ix3 (i 0) (i 1) (j 0) := by
  subst hd
  funext a
  match a with
  | ⟨0, _⟩ => rfl
  | ⟨1, _⟩ => rfl
  | ⟨2, _⟩ => rfl

/-- The indices that reduce to column j are the sixteen (c, s, j). -/
def planeEmb (j : SC.Idx) : Fin 2 × Fin 8 ↪ SO.Idx :=
  ⟨fun p => ix3 p.1 p.2 (j 0), fun p p' hp => by
    have h0 := congrFun hp 0
    have h1 := congrFun hp 1
    exact Prod.ext h0 h1⟩

theorem filter_drop01 (h : SO.ReducesTo [0, 1] SC) (j : SC.Idx) :
    Finset.univ.filter (fun i : SO.Idx => h.drop i = j) = Finset.univ.map (planeEmb j) := by
  ext i
  simp only [Finset.mem_filter, Finset.mem_univ, true_and, Finset.mem_map, planeEmb, Function.Embedding.coeFn_mk]
  constructor
  · intro hd
    exact ⟨(i 0, i 1), (eq_of_drop01 h i j hd).symm⟩
  · rintro ⟨p, rfl⟩
    exact (drop01 h p.1 p.2 (j 0)).trans (eq_ix1 j).symm

/-- The host's sum over the two leading axes, read at column j: the initial value plus the sixteen entries. -/
theorem hostReduceAdd01_apply (h : SO.ReducesTo [0, 1] SC) (x : SO.Idx → EReal) (init : EReal) (j : SC.Idx) :
    Ideal.hostReduceAdd h x init j = init + ∑ c : Fin 2, ∑ s : Fin 8, x (ix3 c s (j 0)) := by
  unfold Ideal.hostReduceAdd
  rw [filter_drop01, Finset.sum_map, Fintype.sum_prod_type]
  rfl

/-- A [2, 8, 512] array that is zero off sublane 0 sums to the sum of its two sublane-0 rows. -/
theorem planes_sum (x : SO.Idx → EReal) (l : Fin 512) (P : Fin 2 → EReal)
    (h0 : ∀ c : Fin 2, x (ix3 c 0 l) = P c) (hs : ∀ (c : Fin 2) (s : Fin 8), s.val ≠ 0 → x (ix3 c s l) = 0) :
    ∑ c : Fin 2, ∑ s : Fin 8, x (ix3 c s l) = ∑ c : Fin 2, P c := by
  refine Finset.sum_congr rfl fun c _ => ?_
  rw [Fin.sum_univ_eight, h0 c, hs c 1 (by decide), hs c 2 (by decide), hs c 3 (by decide), hs c 4 (by decide),
    hs c 5 (by decide), hs c 6 (by decide), hs c 7 (by decide)]
  simp only [add_zero]

/-! ## What follows the column sums, on both sides -/

/-- Subtract one, square, sum over the 512 columns, take the square root, scale by the literal 0.001:
    the same host operations, with the same literals, in both programs. -/
def tail (hb : S0.BroadcastsInDim SC (![] : Fin 0 → Fin SC.rank)) (hr : SC.ReducesTo [0] S0) (h0 : 0 < S0.numel)
    (d : FVec Ideal SC .f32) : FVec Ideal S0 .f32 :=
  mulf (constant (F := Ideal) S0 .f32 0x3A83126F#32)
    (Host.sqrt (F := Ideal)
      (Host.reduceAdd (F := Ideal)
        (mulf (subf d (broadcastInDim SC ![] hb (constant (F := Ideal) S0 .f32 0x3F800000#32)))
          (subf d (broadcastInDim SC ![] hb (constant (F := Ideal) S0 .f32 0x3F800000#32))))
        (constant (F := Ideal) S0 .f32 0x00000000#32) hr h0))

end Cert.ColumnSquares

end
-- ==== Proof.PieceValues.lean ====
/-
  The same, on the extended reals: one update adds to row 0 the column sums of squares of one run (the reduction over
  the 1024 rows is a plain sum from the literal zero), eight updates add the column sums of squares of the whole block
  of 8192 rows (eight additions to one accumulator add the sum of the eight terms: associativity only), and the zero
  fill is zero. So after a point the accumulator's row 0 is what it was (zero at a half's first point) plus the block's
  column sums, and rows 1 to 7 are what they were (zero at a half's first point).
-/
import proofs.«159747_j61701500175357_2_alg».proof.Proof.Pieces
import proofs.«159747_j61701500175357_2_alg».proof.Proof.ColumnSquares
import Idealize.ShloMosaic.PureOps.Ideal.Laws

set_option maxRecDepth 16384

noncomputable section

open Idealize.ShloMosaic Idealize.ShloMosaic.TcCoe Idealize.ShloMosaic.ValueIdx Idealize.SL.Sem

namespace Cert.KernelIdeal.Pieces

open Cert.KernelIdeal Cert.KernelIdeal.Gen Cert.ColumnSquares

variable {F : FTy → Type} [FloatOps F]

/-- A run's entry (r, j) is the block's entry (1024·k + r, j). -/
theorem run_apply (x : Vec F S8192x512 .f32) (k : Fin 8) (r : Fin 1024) (j : Fin 512) :
    run x k (ix2 r j) = x (ix2 (runRow k r) j) := by
  unfold run
  show x ((runRect k).idx (ix2 r j)) = x (ix2 (runRow k r) j)
  refine congrArg x (funext fun a => Fin.ext ?_)
  have hk := k0_off1_eq k
  match a with
  | ⟨0, _⟩ =>
    show k0_off1 (BitVec.ofNat 32 k.val) 0 + 1 * r.val = k.val * 1024 + r.val
    rw [hk]; show 1024 * k.val + 1 * r.val = _; omega
  | ⟨1, _⟩ =>
    show k0_off1 (BitVec.ofNat 32 k.val) 1 + 1 * j.val = j.val
    rw [hk]; show 0 + 1 * j.val = _; omega

/-- Entry (0, j) of the accumulator's row 0, seen as a [1, 512] load, is entry (0, j) of the accumulator. -/
theorem accRow_idx (j : Fin 512) : accRow.idx (ix2 (0 : Fin 1) j) = ix2 (0 : Fin 8) j := by
  funext a
  apply Fin.ext
  match a with
  | ⟨0, _⟩ => show 0 + 1 * 0 = 0; omega
  | ⟨1, _⟩ => show 0 + 1 * j.val = j.val; omega

/-- On the extended reals one update adds, to the accumulator row, the run's column sums of squares:
    the lane reduction over the 1024 rows is a plain sum, started from the literal zero. -/
theorem upd_apply (v : Vec Ideal S1024x512 .f32) (a : Vec Ideal S1x512 .f32) (j : Fin 512) :
    upd (F := Ideal) v a (ix2 0 j) = a (ix2 0 j) + runSq v j := by
  unfold upd k0_pay3
  refine (congrFun (shapeCast_self _ _) _).trans ?_
  show a (ix2 0 j) + _ = _
  refine congrArg (a (ix2 0 j) + ·) ?_
  refine (shapeCast_apply _ _ (ix2 0 j) (ix1 j) ?_).trans ?_
  · rw [Shape.rowMajor_val_one, Shape.rowMajor_val_two]
    show j.val = 0 * 512 + j.val
    omega
  refine (Ideal.multiReduction_add_single _ _ _ _ _ (ix1 j)).trans ?_
  unfold runSq
  have hl : ∀ r : Fin 1024, reduces_S1024x512_S512.lift (ix1 j) r = ix2 r j := fun r =>
    funext fun a => Fin.ext (by match a with | ⟨0, _⟩ => rfl | ⟨1, _⟩ => rfl)
  exact Finset.sum_congr rfl fun r _ => congrArg (fun i => v i * v i) (hl r)

/-- On the extended reals the eight updates add the block's column sums of squares: eight additions to one
    accumulator add the sum of the eight terms (associativity alone), and the eight runs make up the block. -/
theorem row8_apply (x : Vec Ideal S8192x512 .f32) (a : Vec Ideal S1x512 .f32) (j : Fin 512) :
    row8 (F := Ideal) x a (ix2 0 j) = a (ix2 0 j) + blockSq x j := by
  unfold row8
  rw [upd_apply, upd_apply, upd_apply, upd_apply, upd_apply, upd_apply, upd_apply, upd_apply, blockSq_eq_runs]
  have e : ∀ k : Fin 8, runSq (run x k) j = ∑ r : Fin 1024, x (ix2 (runRow k r) j) * x (ix2 (runRow k r) j) := fun k => by
    unfold runSq
    exact Finset.sum_congr rfl fun r _ => by rw [run_apply]
  rw [← chain8 (a (ix2 0 j)) (fun k => ∑ r : Fin 1024, x (ix2 (runRow k r) j) * x (ix2 (runRow k r) j))]
  simp only [e]

/-- The zero fill is zero at every entry. -/
theorem zero_fill (i : S8x512.Idx) : k0_pay2 (F := Ideal) i = 0 := by
  unfold k0_pay2
  refine (congrFun (shapeCast_self _ _) i).trans ?_
  exact Ideal.ofBits_zero_f32

section
variable (c : Dev nD) (i : grid0.Coords) (a2 : Memref sig .tc .vmem S8192x512 .f32) (h2 : a2.IsWhole)
    (a3 : Memref sig .tc .vmem S1x8x512 .f32) (h3 : a3.IsWhole) (a4 : Memref sig .tc .vmem S8x512 .f32) (h4 : a4.IsWhole)

/-- What a first point of a half leaves in the accumulator: row 0 holds the block's column sums of squares, the
    other rows zero. -/
theorem scratchA_apply (hc0 : cond0_0 i) (hc1 : ¬cond0_1 i) (x0 : Vec Ideal S8192x512 .f32) (s : Fin 8) (j : Fin 512) :
    sout0_A_0 (F := Ideal) c i a2 h2 a3 h3 a4 h4 hc0 hc1 x0 (ix2 s j) = if s.val = 0 then blockSq x0 j else 0 := by
  by_cases hs : s.val = 0
  · obtain rfl : s = 0 := Fin.ext hs
    rw [if_pos hs, scratch_A_row0, row8_apply]
    show k0_pay2 (F := Ideal) _ + _ = _
    rw [zero_fill, zero_add]
  · rw [if_neg hs, scratch_A_rest c i a2 h2 a3 h3 a4 h4 hc0 hc1 x0 s hs j, zero_fill]

/-- What a later point leaves: row 0 grows by the block's column sums of squares, the other rows are kept. -/
theorem scratchB_apply (hc0 : ¬cond0_0 i) (hc1 : ¬cond0_1 i) (x0 : Vec Ideal S8192x512 .f32) (xs0 : Vec Ideal S8x512 .f32)
    (s : Fin 8) (j : Fin 512) :
    sout0_B_0 (F := Ideal) c i a2 h2 a3 h3 a4 h4 hc0 hc1 x0 xs0 (ix2 s j)
      = if s.val = 0 then xs0 (ix2 0 j) + blockSq x0 j else xs0 (ix2 s j) := by
  by_cases hs : s.val = 0
  · obtain rfl : s = 0 := Fin.ext hs
    rw [if_pos hs, scratch_B_row0, row8_apply]
    show xs0 (accRow.idx (ix2 0 j)) + _ = _
    rw [accRow_idx]
  · rw [if_neg hs, scratch_B_rest c i a2 h2 a3 h3 a4 h4 hc0 hc1 x0 xs0 s hs j]

/-- The same at the last point of a half. -/
theorem scratchC_apply (hc0 : ¬cond0_0 i) (hc1 : cond0_1 i) (x0 : Vec Ideal S8192x512 .f32) (xs0 : Vec Ideal S8x512 .f32)
    (s : Fin 8) (j : Fin 512) :
    sout0_C_0 (F := Ideal) c i a2 h2 a3 h3 a4 h4 hc0 hc1 x0 xs0 (ix2 s j)
      = if s.val = 0 then xs0 (ix2 0 j) + blockSq x0 j else xs0 (ix2 s j) := by
  by_cases hs : s.val = 0
  · obtain rfl : s = 0 := Fin.ext hs
    rw [if_pos hs, scratch_C_row0, row8_apply]
    show xs0 (accRow.idx (ix2 0 j)) + _ = _
    rw [accRow_idx]
  · rw [if_neg hs, scratch_C_rest c i a2 h2 a3 h3 a4 h4 hc0 hc1 x0 xs0 s hs j]

/-- The output block the last point of a half stores, entry (0, s, j): the accumulator's entry (s, j). -/
theorem outC_apply (hc0 : ¬cond0_0 i) (hc1 : cond0_1 i) (x0 : Vec F S8192x512 .f32) (xs0 : Vec F S8x512 .f32)
    (s : Fin 8) (j : Fin 512) :
    out0_C_1 c i a2 h2 a3 h3 a4 h4 hc0 hc1 x0 xs0 (ix3 0 s j) = sout0_C_0 c i a2 h2 a3 h3 a4 h4 hc0 hc1 x0 xs0 (ix2 s j) := by
  rw [out_C]
  unfold k0_pay1
  refine shapeCast_apply _ _ (ix3 0 s j) (ix2 s j) ?_
  rw [Shape.rowMajor_val_two, Shape.rowMajor_val_three]
  show s.val * 512 + j.val = (0 * 8 + s.val) * 512 + j.val
  omega

end

end Cert.KernelIdeal.Pieces
end
-- ==== Proof.Accumulate.lean ====
/-
  The accumulator point by point, and the output array after the run, on the extended reals.

  By induction on the grid point: after point n, row 0 of the accumulator holds the sum of the block sums of the points
  of n's half up to n, and rows 1 to 7 hold zero. The last point of half p (point 16·p + 15) stores the accumulator as
  plane p of the [2, 8, 512] output array, and no other point writes that plane back; the two planes cover the array.
  So the array ends with the sixteen blocks' column sums of half p in sublane 0 of plane p, and zero elsewhere (`G`).
-/
import proofs.«159747_j61701500175357_2_alg».proof.Proof.PieceValues
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen Cert.KernelIdeal.Pieces Cert.ColumnSquares

variable (m : (ℓ : Loc nD τ sig) → Buf (Elt Ideal) ℓ) (c : Dev nD)

/-- Column j's sum of squares over the block of rows that grid point t reads (zero past the grid). -/
def B (t : ℕ) (j : Fin 512) : EReal := if h : t < cfg0.N then blockSq (iblk m c 0 ⟨t, h⟩) j else 0

theorem B_of_lt (t : Fin cfg0.N) (j : Fin 512) : B m c t.val j = blockSq (iblk m c 0 t) j := dif_pos t.isLt

/-! ## The accumulator, point by point -/

/-- After the first point of a half: row 0 holds that point's block sums, the other rows zero. -/
theorem acc_first (t : Fin cfg0.N) (h0 : t.val % 16 = 0) (h1 : ¬t.val % 16 = 15) (s : Fin 8) (j : Fin 512) :
    (outsAt0 (F := Ideal) m c t.val t.isLt).2 (ix2 s j) = if s.val = 0 then blockSq (iblk m c 0 t) j else 0 := by
  rw [outsAt0_A (F := Ideal) m c t h0 h1]
  dsimp only
  exact scratchA_apply c (grid0.coords t) (ms0_0 t) (hs0_0 t) (ms0_1 t) (hs0_1 t) scM0_0 (Memref.isWhole_whole _)
      ((hcond0_0 t).mpr h0) (fun h => h1 ((hcond0_1 t).mp h)) (iblk m c 0 t) s j

/-- After any later point: row 0 has grown by that point's block sums, the other rows are as they were. -/
theorem acc_later (t : Fin cfg0.N) (h0 : ¬t.val % 16 = 0) (s : Fin 8) (j : Fin 512) :
    (outsAt0 (F := Ideal) m c t.val t.isLt).2 (ix2 s j)
      = if s.val = 0 then
          (outsAt0 (F := Ideal) m c (t.val - 1) (Nat.lt_of_le_of_lt (Nat.sub_le _ _) t.isLt)).2 (ix2 0 j) + blockSq (iblk m c 0 t) j
        else (outsAt0 (F := Ideal) m c (t.val - 1) (Nat.lt_of_le_of_lt (Nat.sub_le _ _) t.isLt)).2 (ix2 s j) := by
  by_cases h1 : t.val % 16 = 15
  · rw [outsAt0_C (F := Ideal) m c t h0 h1]
    dsimp only
    exact scratchC_apply c (grid0.coords t) (ms0_0 t) (hs0_0 t) (ms0_1 t) (hs0_1 t) scM0_0 (Memref.isWhole_whole _)
        (fun h => h0 ((hcond0_0 t).mp h)) ((hcond0_1 t).mpr h1) (iblk m c 0 t)
        (outsAt0 (F := Ideal) m c (t.val - 1) (Nat.lt_of_le_of_lt (Nat.sub_le _ _) t.isLt)).2 s j
  · rw [outsAt0_B (F := Ideal) m c t h0 h1]
    dsimp only
    exact scratchB_apply c (grid0.coords t) (ms0_0 t) (hs0_0 t) (ms0_1 t) (hs0_1 t) scM0_0 (Memref.isWhole_whole _)
        (fun h => h0 ((hcond0_0 t).mp h)) (fun h => h1 ((hcond0_1 t).mp h)) (iblk m c 0 t)
        (outsAt0 (F := Ideal) m c (t.val - 1) (Nat.lt_of_le_of_lt (Nat.sub_le _ _) t.isLt)).2 s j

/-- The output block the last point of a half stores is the accumulator it leaves, viewed as [1, 8, 512]. -/
theorem out_last (t : Fin cfg0.N) (h0 : ¬t.val % 16 = 0) (h1 : t.val % 16 = 15) (s : Fin 8) (j : Fin 512) :
    (outsAt0 (F := Ideal) m c t.val t.isLt).1 (ix3 0 s j) = (outsAt0 (F := Ideal) m c t.val t.isLt).2 (ix2 s j) := by
  rw [outsAt0_C (F := Ideal) m c t h0 h1]
  dsimp only
  exact outC_apply c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 (F := Ideal) m c (t.val - 1) (Nat.lt_of_le_of_lt (Nat.sub_le _ _) t.isLt)).2 s j

/-- THE INVARIANT. After point n, row 0 of the accumulator holds the block sums of the points of n's half up to n
    (the half starts at 16·(n / 16)), and rows 1 to 7 hold zero. By induction on the point: a half's first point
    resets, every other point adds its block's sums to row 0. -/
theorem acc_inv (n : ℕ) : ∀ (hn : n < cfg0.N) (s : Fin 8) (j : Fin 512),
    (outsAt0 (F := Ideal) m c n hn).2 (ix2 s j)
      = if s.val = 0 then ∑ t ∈ Finset.Ico (16 * (n / 16)) (n + 1), B m c t j else 0 := by
  induction n with
  | zero =>
    intro hn s j
    refine (acc_first m c ⟨0, hn⟩ (Nat.zero_mod 16) (show ¬(0 : ℕ) % 16 = 15 by decide) s j).trans ?_
    by_cases hs : s.val = 0
    · rw [if_pos hs, if_pos hs]
      show _ = ∑ t ∈ Finset.Ico 0 (0 + 1), B m c t j
      rw [Nat.Ico_succ_singleton, Finset.sum_singleton]
      exact (B_of_lt m c ⟨0, hn⟩ j).symm
    · rw [if_neg hs, if_neg hs]
  | succ n ih =>
    intro hn s j
    have hN : n + 1 < 32 := lt_of_lt_of_eq hn (show cfg0.N = 32 from N_0)
    by_cases h0 : (n + 1) % 16 = 0
    · have h1 : ¬(n + 1) % 16 = 15 := by omega
      refine (acc_first m c ⟨n + 1, hn⟩ h0 h1 s j).trans ?_
      by_cases hs : s.val = 0
      · rw [if_pos hs, if_pos hs]
        have e : 16 * ((n + 1) / 16) = n + 1 := by omega
        rw [e, Nat.Ico_succ_singleton, Finset.sum_singleton]
        exact (B_of_lt m c ⟨n + 1, hn⟩ j).symm
      · rw [if_neg hs, if_neg hs]
    · refine (acc_later m c ⟨n + 1, hn⟩ h0 s j).trans ?_
      have ihn := ih (Nat.lt_of_succ_lt hn)
      by_cases hs : s.val = 0
      · rw [if_pos hs, if_pos hs]
        show (outsAt0 (F := Ideal) m c n (Nat.lt_of_succ_lt hn)).2 (ix2 0 j) + _ = _
        rw [ihn 0 j, if_pos (show ((0 : Fin 8) : ℕ) = 0 from rfl)]
        have e : 16 * ((n + 1) / 16) = 16 * (n / 16) := by omega
        rw [e, Finset.sum_Ico_succ_top (by omega : 16 * (n / 16) ≤ n + 1), B_of_lt m c ⟨n + 1, hn⟩ j]
      · rw [if_neg hs, if_neg hs]
        show (outsAt0 (F := Ideal) m c n (Nat.lt_of_succ_lt hn)).2 (ix2 s j) = 0
        rw [ihn s j, if_neg hs]

/-! ## The output array after the run -/

/-- What the [2, 8, 512] output array ends holding: sublane 0 of plane p holds the block sums of half p's sixteen
    points, the other sublanes zero. -/
def G (i : S2x8x512.Idx) : EReal :=
  if (i 1).val = 0 then ∑ t ∈ Finset.Ico (16 * (i 0).val) (16 * (i 0).val + 16), B m c t (i 2) else 0

/-- The output window's block index at point t is (t / 16, 0, 0): decided over the 32 points. -/
theorem idx_facts : ∀ t : Fin cfg0.N, win0_1.index t (0 : Fin 3) = t.val / 16 ∧ win0_1.index t (1 : Fin 3) = 0
    ∧ win0_1.index t (2 : Fin 3) = 0 :=
  (by decide +kernel : ∀ t : Fin grid0.N, _)

/-- What the last point of a half writes back, entry by entry, is that plane of `G`. -/
theorem flushed_apply (t : Fin cfg0.N) (hf : (cfg0.win 1).flush t = true) (y : S1x8x512.Idx) :
    (outsAt0 (F := Ideal) m c t.val t.isLt).1 y = ((cfg0.win 1).blk t).view.read (Elt Ideal) (G m c) y := by
  have hN : t.val < 32 := lt_of_lt_of_eq t.isLt (show cfg0.N = 32 from N_0)
  have h15 : t.val % 16 = 15 := (flush0_1 t).mp hf
  have h0 : ¬t.val % 16 = 0 := by omega
  obtain ⟨e0, e1, e2⟩ := idx_facts t
  obtain ⟨p, s, j, rfl⟩ : ∃ (p : Fin 1) (s : Fin 8) (j : Fin 512), y = ix3 p s j := ⟨y 0, y 1, y 2, eq_ix3 y⟩
  obtain rfl : p = 0 := Subsingleton.elim _ _
  show _ = G m c (((cfg0.win 1).blk t).view.emb (ix3 0 s j))
  have hemb : ((cfg0.win 1).blk t).view.emb (ix3 (0 : Fin 1) s j)
      = (ix3 (⟨t.val / 16, by omega⟩ : Fin 2) s j : S2x8x512.Idx) := by
    funext a
    apply Fin.ext
    match a with
    | ⟨0, _⟩ => show win0_1.index t (0 : Fin 3) * 1 + 1 * 0 = t.val / 16; rw [e0]; omega
    | ⟨1, _⟩ => show win0_1.index t (1 : Fin 3) * 8 + 1 * s.val = s.val; rw [e1]; omega
    | ⟨2, _⟩ => show win0_1.index t (2 : Fin 3) * 512 + 1 * j.val = j.val; rw [e2]; omega
  rw [hemb, out_last m c t h0 h15 s j, acc_inv m c t.val t.isLt s j]
  unfold G
  show _ = if s.val = 0 then ∑ t' ∈ Finset.Ico (16 * (t.val / 16)) (16 * (t.val / 16) + 16), B m c t' j else 0
  have e : t.val + 1 = 16 * (t.val / 16) + 16 := by omega
  rw [e]

theorem flushed_eq (t : Fin cfg0.N) (hf : (cfg0.win 1).flush t = true) :
    (dats (F := Ideal) m 0 c).flushed 1 t = ((cfg0.win 1).blk t).view.read (Elt Ideal) (G m c) := by
  show (cfg0.win 1).cut (grid0.coords t) ((dats (F := Ideal) m 0 c).after 1 t) = _
  rw [after0_1]
  funext y
  exact flushed_apply m c t hf y

/-- An index of the array is in point t's block iff each coordinate is in the block's range on its axis. -/
theorem mem_blk (t : Fin cfg0.N) (i : S2x8x512.Idx) :
    i ∈ ((cfg0.win 1).blk t).view.set ↔ ∀ a : Fin 3, win0_1.index t a * S1x8x512.size a ≤ (i a).val
      ∧ (i a).val < win0_1.index t a * S1x8x512.size a + S1x8x512.size a := by
  show i ∈ ((View.whole main_v0).slice (win0_1.rect t)).set ↔ _
  rw [View.set_slice_whole, Rect.mem_set_unit]
  exact Iff.rfl

/-- THE OUTPUT ARRAY after the run is `G`: plane p is written back once, by the last point of half p. -/
theorem final : (dats (F := Ideal) m 0 c).arrAt 1 cfg0.N = G m c :=
  (dats (F := Ideal) m 0 c).arrAt_eq_of_cover 1 (G m c) (fun t hf => flushed_eq m c t hf) fun i => by
    have hi0 : (i 0).val < 2 := (i 0).isLt
    have hi1 : (i 1).val < 8 := (i 1).isLt
    have hi2 : (i 2).val < 512 := (i 2).isLt
    have hlt : 16 * (i 0).val + 15 < cfg0.N := by rw [show cfg0.N = 32 from N_0]; omega
    refine ⟨⟨16 * (i 0).val + 15, hlt⟩, (flush0_1 _).mpr (by show (16 * (i 0).val + 15) % 16 = 15; omega), ?_⟩
    rw [mem_blk]
    obtain ⟨e0, e1, e2⟩ := idx_facts ⟨16 * (i 0).val + 15, hlt⟩
    intro a
    match a with
    | ⟨0, _⟩ =>
      show win0_1.index ⟨16 * (i 0).val + 15, hlt⟩ (0 : Fin 3) * 1 ≤ (i 0).val
        ∧ (i 0).val < win0_1.index ⟨16 * (i 0).val + 15, hlt⟩ (0 : Fin 3) * 1 + 1
      rw [e0]; show (16 * (i 0).val + 15) / 16 * 1 ≤ (i 0).val ∧ (i 0).val < (16 * (i 0).val + 15) / 16 * 1 + 1; omega
    | ⟨1, _⟩ =>
      show win0_1.index ⟨16 * (i 0).val + 15, hlt⟩ (1 : Fin 3) * 8 ≤ (i 1).val
        ∧ (i 1).val < win0_1.index ⟨16 * (i 0).val + 15, hlt⟩ (1 : Fin 3) * 8 + 8
      rw [e1]; omega
    | ⟨2, _⟩ =>
      show win0_1.index ⟨16 * (i 0).val + 15, hlt⟩ (2 : Fin 3) * 512 ≤ (i 2).val
        ∧ (i 2).val < win0_1.index ⟨16 * (i 0).val + 15, hlt⟩ (2 : Fin 3) * 512 + 512
      rw [e2]; omega

end Cert.KernelIdeal.Acc
end
-- ==== Proof.KernelValue.lean ====
/-
  The kernel's result as a function of the matrix.

  The block grid point t reads is rows 8192·t … 8192·t + 8191 of the matrix, so its block sums are the matrix's column
  sums of squares over those rows; the 32 blocks are all 262144 rows. Hence the output array, summed over its two
  leading axes (two planes, eight sublanes of which seven are zero), is at column j the column's squared norm. The host
  operations after the region apply the common tail to that sum.
-/
import proofs.«159747_j61701500175357_2_alg».proof.Proof.Accumulate
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen Cert.KernelIdeal.Pieces Cert.ColumnSquares

variable (m : (ℓ : Loc nD τ sig) → Buf (Elt Ideal) ℓ) (c : Dev nD)

/-! ## The blocks are the matrix's consecutive runs of 8192 rows -/

/-- The matrix, as core c finds it when the region is entered. -/
def D : SD.Idx → EReal := m ((c : Thread nD τ).loc main_arg0)

/-- The input window's block index at point t is (t, 0): decided over the 32 points. -/
theorem in_idx_facts : ∀ t : Fin cfg0.N, win0_0.index t (0 : Fin 2) = t.val ∧ win0_0.index t (1 : Fin 2) = 0 :=
  (by decide +kernel : ∀ t : Fin grid0.N, _)

/-- Entry (q, j) of the block point t reads is entry (8192·t + q, j) of the matrix. -/
theorem iblk_apply (t : Fin cfg0.N) (q : Fin 8192) (j : Fin 512) (hq : t.val * 8192 + q.val < 262144) :
    iblk (F := Ideal) m c 0 t (ix2 q j) = D m c (ix2 ⟨t.val * 8192 + q.val, hq⟩ j) := by
  obtain ⟨e0, e1⟩ := in_idx_facts t
  unfold iblk
  show V m c main_arg0 (((cfg0.win 0).blk t).view.emb (ix2 q j)) = _
  rw [V_main_arg0]
  unfold D
  refine congrArg _ (funext fun a => Fin.ext ?_)
  match a with
  | ⟨0, _⟩ => show win0_0.index t (0 : Fin 2) * 8192 + 1 * q.val = t.val * 8192 + q.val; rw [e0]; omega
  | ⟨1, _⟩ => show win0_0.index t (1 : Fin 2) * 512 + 1 * j.val = j.val; rw [e1]; omega

/-- Point t's block sums are the matrix's column sums of squares over rows 8192·t … 8192·t + 8191. -/
theorem B_eq (t : Fin 32) (j : Fin 512) :
    B m c t.val j = ∑ q : Fin 8192, D m c (ix2 (blockRow t q) j) * D m c (ix2 (blockRow t q) j) := by
  have ht : t.val < cfg0.N := by rw [show cfg0.N = 32 from N_0]; exact t.isLt
  rw [B_of_lt m c ⟨t.val, ht⟩ j]
  unfold blockSq
  exact Finset.sum_congr rfl fun q _ => by rw [iblk_apply m c ⟨t.val, ht⟩ q j (blockRow t q).isLt]

/-- The sixteen points of half p. -/
theorem half_sum (p : Fin 2) (j : Fin 512) :
    ∑ t ∈ Finset.Ico (16 * p.val) (16 * p.val + 16), B m c t j = ∑ i : Fin 16, B m c (p.val * 16 + i.val) j := by
  rw [Finset.sum_Ico_eq_sum_range, Nat.add_sub_cancel_left, Finset.sum_range]
  exact Finset.sum_congr rfl fun i _ => by rw [Nat.mul_comm]

/-- THE BRIDGE on the kernel's side: the output array, summed over its two leading axes, is the column's squared
    norm over all 262144 rows — two halves of sixteen blocks of 8192 rows, and zeros. -/
theorem G_sum (j : Fin 512) :
    ∑ p : Fin 2, ∑ s : Fin 8, G m c (ix3 p s j) = colSq (D m c) j := by
  rw [planes_sum (G m c) j (fun p => ∑ i : Fin 16, B m c (p.val * 16 + i.val) j) ?_ ?_]
  · rw [colSq_eq_blocks, sum_halves]
    refine Finset.sum_congr rfl fun p _ => Finset.sum_congr rfl fun i _ => ?_
    exact B_eq m c ⟨p.val * 16 + i.val, by have := p.isLt; have := i.isLt; omega⟩ j
  · intro p
    unfold G
    show (if (0 : ℕ) = 0 then _ else _) = _
    rw [if_pos rfl]
    exact half_sum m c p j
  · intro p s hs
    unfold G
    show (if s.val = 0 then _ else _) = _
    rw [if_neg hs]

/-! ## The run, read -/

/-- What @main's result buffer holds after the host operations that follow the region: the common tail of the sum,
    over the two leading axes, of the output array. -/
theorem tail_eq :
    Pipeline.afterTail₀ cfgs (dats (F := Ideal) m) 0 (V0 m) [hostOps1] c main_v7
      = tail bcast_S_S512 reducesTo_S512_S_d0 h_S_
          (Host.reduceAdd (F := Ideal) (G m c) (constant (F := Ideal) S_ .f32 0x00000000#32) reducesTo_S2x8x512_S512_d0_1 h_S_) := by
  unfold Pipeline.afterTail₀
  show StableHlo.after hostOps1 _ (Proc.devRef .tc main_v7) = _
  after_results
  have hw : Pipeline.withArrays (cfgs 0).spec c (V0 m c) (fun w => (dats (F := Ideal) m 0 c).arrAt w (cfgs 0).N)
      (Proc.devRef .tc main_v0) = G m c :=
    (Pipeline.withArrays_arr spec0 launch0.win.arr_inj c _ _ 1).trans (final m c)
  rw [hw]
  rfl

/-- The sum over the two leading axes of the output array, read at column j: zero plus the column's squared norm. -/
theorem kernel_colsum (i : S512.Idx) :
    Host.reduceAdd (F := Ideal) (G m c) (constant (F := Ideal) S_ .f32 0x00000000#32) reducesTo_S2x8x512_S512_d0_1 h_S_ i
      = 0 + colSq (D m c) (i 0) := by
  simp only [Host.reduceAdd, Ideal.hostReduceAdd_def]
  rw [hostReduceAdd01_apply]
  show Ideal.ofBits .f32 0x00000000#32 + _ = _
  rw [Ideal.ofBits_zero_f32]
  exact congrArg (0 + ·) (G_sum m c (i 0))

/-- The kernel's run, read: @main's result at the common tail of the output array's sum over its leading axes,
    the argument unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v7) = tail bcast_S_S512 reducesTo_S512_S_d0 h_S_
          (Host.reduceAdd (F := Ideal) (G m c) (constant (F := Ideal) S_ .f32 0x00000000#32) reducesTo_S2x8x512_S512_d0_1 h_S_)
      ∧ r.2.mem ((c.tc : Thread nD τ).loc main_arg0) = m ((c.tc : Thread nD τ).loc main_arg0) :=
  (θ_run defs _ _).mono (fun r h c =>
      ⟨((h c).2 main_v7 (Pipeline.mem_restRefs_of main_v7 rfl (by decide))).trans (tail_eq m c),
        ((h c).1 0).trans (((dats (F := Ideal) m 0 c).arrAt_in 0 rfl _).trans ((A_eq m c 0).trans (V_main_arg0 m c)))⟩)
    (run_main m ρ)

end Cert.KernelIdeal.Acc
end
-- ==== Proof.ReferenceValue.lean ====
/-
  The reference's column sums on the extended reals: the literal zero plus, at column j, the sum over all 262144 rows
  of the squares; its result is the common tail of them.
-/
import proofs.«159747_j61701500175357_2_alg».proof.Proof.Gen.ReferenceIdeal.Read
import proofs.«159747_j61701500175357_2_alg».proof.Proof.ColumnSquares

noncomputable section

open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read Cert.ColumnSquares

/-- The reference's column sums: the literal zero plus the sum, over all 262144 rows, of the squares. -/
theorem colsum_apply (D : (⟨S262144x512, .f32⟩ : BufTy).Contents (Elt Ideal)) (i : S512.Idx) :
    val_main_v1 (F := Ideal) D i = 0 + colSq D (i 0) := by
  rw [val_main_v1_apply]
  have hz : val_main_cst (F := Ideal) (Shape.Idx.first h_S_) = 0 := Ideal.ofBits_zero_f32
  rw [hz]
  refine congrArg (0 + ·) ?_
  unfold colSq
  refine Finset.sum_congr rfl fun k _ => ?_
  have hi : idx_main_v1 i k = ix2 k (i 0) :=
    funext fun a => Fin.ext (by match a with | ⟨0, _⟩ => rfl | ⟨1, _⟩ => rfl)
  rw [val_main_v0_apply, hi]
  rfl

/-- The reference's result is the common tail of its column sums. -/
theorem result_eq (D : (⟨S262144x512, .f32⟩ : BufTy).Contents (Elt Ideal)) :
    val_main_v7 (F := Ideal) D = tail bcast_S_S512 reducesTo_S512_S_d0 h_S_ (val_main_v1 (F := Ideal) D) := rfl

end Cert.ReferenceIdeal.RefValue
end
-- ==== Proof.lean ====
/-
  The column-norm residual  0.001 · sqrt( ∑_j ( ∑_r D(r, j)² − 1 )² )  of a matrix D of 262144 rows and 512 columns,
  computed two ways, is one number on the extended reals.

  The kernel walks the rows in 32 grid points of 8192 rows, two halves of sixteen points. In each half an [8, 512]
  accumulator is zeroed at the first point; every point adds to its row 0, run by run of 1024 rows, the column sums of
  the squares; the last point of the half stores the accumulator as plane p of a [2, 8, 512] array. The host then sums
  that array over its two leading axes: plane p's sublane 0 holds the sixteen blocks' column sums, the other sublanes
  hold zero, so the sum is  ∑_r D(r, j)²  — the rows grouped as 2 · 16 · 8 · 1024, which only reorders and regroups
  a sum (associativity and commutativity of +, and 0 + a = a; nothing has to be finite).  The reference sums the
  squares down each column directly.  From the column sums on, both programs apply the same host operations with
  the same literals; that common tail is one function and is never opened.

  Modules: ColumnSquares (the sums and their regrouping; the tail), Pieces and PieceValues (what one grid point leaves
  in the accumulator and in the output block), Accumulate (the accumulator point by point; the output array after the
  run), KernelValue (the blocks as rows of D; the run with the host tail), ReferenceValue (the reference's column sums).
  The three frames are the generated ones; no rewrite was applied when the kernel was idealized, so that conjunct
  is trivial.
-/
import proofs.«159747_j61701500175357_2_alg».proof.Defs
import proofs.«159747_j61701500175357_2_alg».proof.Proof.Gen.Kernel
import proofs.«159747_j61701500175357_2_alg».proof.Proof.Gen.Kernel.Skeleton
import proofs.«159747_j61701500175357_2_alg».proof.Proof.Gen.Kernel.Launch
import proofs.«159747_j61701500175357_2_alg».proof.Proof.Gen.Kernel.Points
import proofs.«159747_j61701500175357_2_alg».proof.Proof.Gen.Kernel.Frame
import proofs.«159747_j61701500175357_2_alg».proof.Proof.Gen.KernelIdeal
import proofs.«159747_j61701500175357_2_alg».proof.Proof.Gen.KernelIdeal.Skeleton
import proofs.«159747_j61701500175357_2_alg».proof.Proof.Gen.KernelIdeal.Launch
import proofs.«159747_j61701500175357_2_alg».proof.Proof.Gen.KernelIdeal.Points
import proofs.«159747_j61701500175357_2_alg».proof.Proof.Gen.KernelIdeal.Frame
import proofs.«159747_j61701500175357_2_alg».proof.Proof.Gen.ReferenceIdeal
import proofs.«159747_j61701500175357_2_alg».proof.Proof.Gen.ReferenceIdeal.Run
import proofs.«159747_j61701500175357_2_alg».proof.Proof.Gen.ReferenceIdeal.Read
import proofs.«159747_j61701500175357_2_alg».proof.Proof.Gen.Pre_finite_inputs
import proofs.«159747_j61701500175357_2_alg».proof.Proof.KernelValue
import proofs.«159747_j61701500175357_2_alg».proof.Proof.ReferenceValue
import Idealize.ShloMosaic.Adequacy
import Idealize.ShloMosaic.Init

noncomputable section

namespace Cert.Proof

open Idealize.ShloMosaic Idealize.SL.Sem Cert.ColumnSquares

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the common tail of their column sums, and the column sums agree entry by entry:
    zero plus the column's squared norm over all rows. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, hagree c]
  refine congrArg (tail _ _ _) ?_
  funext i
  rw [Cert.ReferenceIdeal.RefValue.colsum_apply]
  exact (Cert.KernelIdeal.Acc.kernel_colsum m c i).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
